-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S1024x65536 : Shape := ⟨2, ![1024, 65536]⟩
abbrev S65536 : Shape := ⟨1, ![65536]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S1024x65536 : S_.BroadcastsInDim S1024x65536 (![] : Fin 0 → Fin S1024x65536.rank)
  reducesTo_S1024x65536_S_d0_1 : S1024x65536.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  main_v18

def fn {F : FTy → Type} [FloatOps F] (main_arg0 : FVec F S32x1024 .f32) (main_arg1 : FVec F S1024x65536 .f32) (main_arg2 : FVec F S1024x65536 .f32) (main_arg3 : FVec F S65536 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S1024x65536 .f32 := Host.absf main_arg1
  let main_cst_0 : FVec F S_ .f32 := constant S_ .f32 0x7F800000#32
  let main_v5 : FVec F S1024x65536 .f32 := broadcastInDim S1024x65536 ![] bcast_S_S1024x65536 main_cst_0
  let main_v6 : IVec S1024x65536 1 := cmpf .olt main_v4 main_v5
  let main_c_1 : IVec S_ 1 := constantI S_ 1 1#1
  let main_v7 : IVec S_ 1 := (fun x v => Host.reduce IntOp.andi x v reducesTo_S1024x65536_S_d0_1 h_S_) main_v6 main_c_1
  let main_v8 : IVec S_ 1 := andi main_v3 main_v7
  let main_v9 : FVec F S1024x65536 .f32 := Host.absf main_arg2
  let main_cst_2 : FVec F S_ .f32 := constant S_ .f32 0x7F800000#32
  let main_v10 : FVec F S1024x65536 .f32 := broadcastInDim S1024x65536 ![] bcast_S_S1024x65536 main_cst_2
  let main_v11 : IVec S1024x65536 1 := cmpf .olt main_v9 main_v10
  let main_c_3 : IVec S_ 1 := constantI S_ 1 1#1
  let main_v12 : IVec S_ 1 := (fun x v => Host.reduce IntOp.andi x v reducesTo_S1024x65536_S_d0_1 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_v13 main_v16
-- ==== Kernel.lean ====
abbrev S32x1024 : Shape := ⟨2, ![32, 1024]⟩
abbrev S1024x65536 : Shape := ⟨2, ![1024, 65536]⟩
abbrev S65536 : Shape := ⟨1, ![65536]⟩
abbrev S32x65536 : Shape := ⟨2, ![32, 65536]⟩
abbrev S1024x2048 : Shape := ⟨2, ![1024, 2048]⟩
abbrev S2048 : Shape := ⟨1, ![2048]⟩
abbrev S32x2048 : Shape := ⟨2, ![32, 2048]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S32x1024, .f32⟩
  | .hbm, ⟨1, _⟩ => ⟨S1024x65536, .f32⟩
  | .hbm, ⟨2, _⟩ => ⟨S1024x65536, .f32⟩
  | .hbm, ⟨3, _⟩ => ⟨S65536, .f32⟩
  | .hbm, ⟨4, _⟩ => ⟨S32x65536, .f32⟩
  | .local _ .vmem, ⟨0, _⟩ => ⟨S32x1024, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S2048, .f32⟩
  | .local _ .vmem, ⟨6, _⟩ => ⟨S2048, .f32⟩
  | .local _ .vmem, ⟨7, _⟩ => ⟨S32x2048, .f32⟩
  | .local _ .vmem, ⟨8, _⟩ => ⟨S32x2048, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  inb_S32x1024_S32x1024_0_0 : ∀ a, (![0, 0] : Fin 2 → Nat) a + S32x1024.size a ≤ S32x1024.size a
  h_S32x1024 : 0 < S32x1024.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S32x2048 : S1x2048.Broadcasts S32x2048
  inb_S32x2048_S32x2048_0_0 : ∀ a, (![0, 0] : Fin 2 → Nat) a + S32x2048.size a ≤ S32x2048.size a
  h_S32x2048 : 0 < S32x2048.numel
  dot_S32x1024_S1024x2048_S32x2048_1_0_0_1_n_n_wf : DotDims.WF S32x1024 S1024x2048 S32x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x65536.size a
  hwx0_1 : ∀ i : grid0.Coords, EltTy.bits .f32 = 32 ∨ (Rect.block (s := S1024x65536) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x65536.size a
  hwx0_2 : ∀ i : grid0.Coords, EltTy.bits .f32 = 32 ∨ (Rect.block (s := S1024x65536) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S65536.size a
  hwx0_3 : ∀ i : grid0.Coords, EltTy.bits .f32 = 32 ∨ (Rect.block (s := S65536) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S32x65536.size a
  hwx0_4 : ∀ i : grid0.Coords, EltTy.bits .f32 = 32 ∨ (Rect.block (s := S32x65536) S32x2048.size (cc0_transform_4 i) (hinb0_4 i)).WholeWords (EltTy.packing .f32)

variable [Facts₀]

def dot_S32x1024_S1024x2048_S32x2048_1_0_0_1_n_n : DotDims S32x1024 S1024x2048 S32x2048 where
  lhsContracting := [1]
  rhsContracting := [0]
  lhsNonContracting := [0]
  rhsNonContracting := [1]
  lhsBatch := []
  rhsBatch := []
  wf := dot_S32x1024_S1024x2048_S32x2048_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024 : Shape := ⟨2, ![32, 1024]⟩
abbrev S1024x65536 : Shape := ⟨2, ![1024, 65536]⟩
abbrev S65536 : Shape := ⟨1, ![65536]⟩
abbrev S32x65536 : Shape := ⟨2, ![32, 65536]⟩
abbrev S1x65536 : Shape := ⟨2, ![1, 65536]⟩

abbrev nBuf : Space → Nat
  | .hbm => 9
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x65536, .f32⟩
  | .hbm, ⟨2, _⟩ => ⟨S1024x65536, .f32⟩
  | .hbm, ⟨3, _⟩ => ⟨S65536, .f32⟩
  | .hbm, ⟨4, _⟩ => ⟨S1024x65536, .f32⟩
  | .hbm, ⟨5, _⟩ => ⟨S32x65536, .f32⟩
  | .hbm, ⟨6, _⟩ => ⟨S1x65536, .f32⟩
  | .hbm, ⟨7, _⟩ => ⟨S32x65536, .f32⟩
  | .hbm, ⟨8, _⟩ => ⟨S32x65536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S32x65536_0_1 : S1x65536.BroadcastsInDim S32x65536 (![0, 1] : Fin 2 → Fin S32x65536.rank)
  dot_S32x1024_S1024x65536_S32x65536_1_0_0_1_n_n_wf : DotDims.WF S32x1024 S1024x65536 S32x65536 [1] [0] [0] [1] [] []

variable [Facts₀]

def dot_S32x1024_S1024x65536_S32x65536_1_0_0_1_n_n : DotDims S32x1024 S1024x65536 S32x65536 where
  lhsContracting := [1]
  rhsContracting := [0]
  lhsNonContracting := [0]
  rhsNonContracting := [1]
  lhsBatch := []
  rhsBatch := []
  wf := dot_S32x1024_S1024x65536_S32x65536_1_0_0_1_n_n_wf

class Facts : Prop extends Facts₀ where

variable [Facts]
-- ==== Proof.MaskedLinear.lean ====
/-
  The masked linear layer, as ONE function of its four argument arrays over the extended reals.

  For an input row `p` (of 32) and an output column `J` (of 65536) the layer's entry is

      ( Σ_{k < 1024}  x(p, k) · ( w(k, J) · mask(k, J) ) )  +  b(J):

  each weight is first multiplied by its mask entry, the masked weights are contracted with the input row over the
  1024 input features, and the column's bias is added. Every operation is the exact one on the extended reals, so
  the value does not depend on the order in which the 1024 products are added, nor on how the columns are grouped
  into tiles. Both programs are shown to end holding this function of their arguments.
-/
import Idealize.ShloMosaic.PureOps.Ideal
import Idealize.ShloMosaic.Lib.ValueIdx

noncomputable section

namespace Cert.MaskedLinear

open Idealize.ShloMosaic Idealize.ShloMosaic.ValueIdx

/-- Entry `(p, J)` of the layer: the contraction of row `p` of `x` with column `J` of the masked weights
    `w · mask`, plus the bias of column `J`. -/
def entry (x : FVec Ideal ⟨2, ![32, 1024]⟩ .f32) (mask w : FVec Ideal ⟨2, ![1024, 65536]⟩ .f32)
    (b : FVec Ideal ⟨1, ![65536]⟩ .f32) (p : Fin 32) (J : Fin 65536) : EReal :=
  (∑ k : Fin 1024, x (ix2 p k) * (w (ix2 k J) * mask (ix2 k J))) + b (ix1 J)

/-- The whole `[32, 65536]` result: at each index its entry. -/
def layer (x : FVec Ideal ⟨2, ![32, 1024]⟩ .f32) (mask w : FVec Ideal ⟨2, ![1024, 65536]⟩ .f32)
    (b : FVec Ideal ⟨1, ![65536]⟩ .f32) : FVec Ideal ⟨2, ![32, 65536]⟩ .f32 :=
  fun i => entry x mask w b (i 0) (i 1)

/-- The result read at an index given by its two coordinates. -/
theorem layer_ix2 (x : FVec Ideal ⟨2, ![32, 1024]⟩ .f32) (mask w : FVec Ideal ⟨2, ![1024, 65536]⟩ .f32)
    (b : FVec Ideal ⟨1, ![65536]⟩ .f32) (p : Fin 32) (J : Fin 65536) :
    layer x mask w b (ix2 p J) = entry x mask w b p J := rfl

end Cert.MaskedLinear

end
-- ==== Proof.ReferenceStage.lean ====
/-
  The reference computes the masked linear layer.

  The reference multiplies the weights by the mask entry by entry, contracts the input with the product over the
  1024 input features in one `dot_general`, and adds the bias broadcast over the 32 rows. Read at an index `(p, J)`:
  the product array at `(k, J)` is `w(k, J) · mask(k, J)`; the contraction is the sum over `k` of `x(p, k)` times
  that; the twice-broadcast bias at `(p, J)` is `b(J)`. That is the layer's entry, term by term.
-/
import proofs.«143473_j82695300317332_2_alg».proof.Proof.Gen.ReferenceIdeal.Read
import proofs.«143473_j82695300317332_2_alg».proof.Proof.MaskedLinear

noncomputable section

namespace Cert.ReferenceIdeal.Stage

open Cert.ReferenceIdeal Cert.ReferenceIdeal.Read Idealize.ShloMosaic Idealize.ShloMosaic.ValueIdx

/-- The left operand's index for output `(p, J)` and feature `k` is `(p, k)`. -/
theorem lidx_eq (i : S32x65536.Idx) (k : Fin 1024) : lidx_main_v1 i k = ix2 (i 0) k :=
  funext fun a => by match a with | ⟨0, _⟩ => rfl | ⟨1, _⟩ => rfl

/-- The right operand's index for output `(p, J)` and feature `k` is `(k, J)`. -/
theorem ridx_eq (i : S32x65536.Idx) (k : Fin 1024) : ridx_main_v1 i k = ix2 k (i 1) :=
  funext fun a => by match a with | ⟨0, _⟩ => rfl | ⟨1, _⟩ => rfl

/-- The bias broadcast to a row and then over the rows is read, at `(p, J)`, at `J`. -/
theorem bidx_eq (i : S32x65536.Idx) : idx_main_v2 (idx_main_v3 i) = ix1 (i 1) :=
  funext fun a => by match a with | ⟨0, _⟩ => rfl

/-- The reference's last stage, as a function of the four arguments, is the masked linear layer. -/
theorem stage_eq (x : FVec Ideal S32x1024 .f32) (mask w : FVec Ideal S1024x65536 .f32) (b : FVec Ideal S65536 .f32) :
    val_main_v4 (F := Ideal) x mask w b = Cert.MaskedLinear.layer x mask w b := by
  funext i
  rw [val_main_v4_apply, val_main_v1_apply, val_main_v3_apply, val_main_v2_apply]
  simp only [val_main_v0_apply, lidx_eq, ridx_eq, bidx_eq, Ideal.addf_def, Ideal.mulf_def]
  rfl

end Cert.ReferenceIdeal.Stage

end
-- ==== Proof.BodyAtIndex.lean ====
/-
  One grid step's arithmetic, read at an index.

  A grid step holds the whole input `x` (`[32, 1024]`), one tile of 2048 columns of the weights and of the mask
  (`[1024, 2048]` each) and the same 2048 entries of the bias. It multiplies the weight tile by the mask tile entry
  by entry, multiplies `x` by the product as matrices starting from an accumulator of zeros, reshapes the bias
  entries to one row, repeats that row over the 32 rows, and adds.

  Read at row `p` and column `q` of the tile: a matrix product accumulated into zeros is, on the extended reals, the
  plain sum over the 1024 features `k` of `x(p, k)` times the right factor at `(k, q)` (zero is neutral for the
  extended reals' addition, with no finiteness needed); the right factor at `(k, q)` is `w(k, q) · mask(k, q)`; a
  vector viewed as one row and repeated over the rows reads, at `(p, q)`, its entry `q`.
-/
import proofs.«143473_j82695300317332_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices -/

/-- The left operand's row is the output's row. -/
theorem lhs_row (i : S32x2048.Idx) (u : dot_S32x1024_S1024x2048_S32x2048_1_0_0_1_n_n.contr.Idx) :
    (dot_S32x1024_S1024x2048_S32x2048_1_0_0_1_n_n.lhsIdx i u 0).val = (i 0).val := by
  unfold DotDims.lhsIdx
  rw [dif_neg (show ¬(0 : Fin S32x1024.rank) ∈ dot_S32x1024_S1024x2048_S32x2048_1_0_0_1_n_n.lhsBatch by decide), dif_pos (show (0 : Fin S32x1024.rank) ∈ dot_S32x1024_S1024x2048_S32x2048_1_0_0_1_n_n.lhsNonContracting by decide)]
  rfl

/-- The left operand's column is the contracted feature. -/
theorem lhs_col (i : S32x2048.Idx) (u : dot_S32x1024_S1024x2048_S32x2048_1_0_0_1_n_n.contr.Idx) :
    (dot_S32x1024_S1024x2048_S32x2048_1_0_0_1_n_n.lhsIdx i u 1).val = (u ⟨0, by decide⟩).val :=
  dot_S32x1024_S1024x2048_S32x2048_1_0_0_1_n_n.lhsIdx_val_of_single rfl i u

/-- The right operand's row is the contracted feature. -/
theorem rhs_row (i : S32x2048.Idx) (u : dot_S32x1024_S1024x2048_S32x2048_1_0_0_1_n_n.contr.Idx) :
    (dot_S32x1024_S1024x2048_S32x2048_1_0_0_1_n_n.rhsIdx i u 0).val = (u ⟨0, by decide⟩).val :=
  dot_S32x1024_S1024x2048_S32x2048_1_0_0_1_n_n.rhsIdx_val_of_single rfl i u

/-- The right operand's column is the output's column. -/
theorem rhs_col (i : S32x2048.Idx) (u : dot_S32x1024_S1024x2048_S32x2048_1_0_0_1_n_n.contr.Idx) :
    (dot_S32x1024_S1024x2048_S32x2048_1_0_0_1_n_n.rhsIdx i u 1).val = (i 1).val := by
  unfold DotDims.rhsIdx
  rw [dif_neg (show ¬(1 : Fin S1024x2048.rank) ∈ dot_S32x1024_S1024x2048_S32x2048_1_0_0_1_n_n.rhsBatch by decide), dif_pos (show (1 : Fin S1024x2048.rank) ∈ dot_S32x1024_S1024x2048_S32x2048_1_0_0_1_n_n.rhsNonContracting by decide)]
  rfl

/-! ## The matrix product into zeros, at an index -/

/-- A `[32, 1024]` by `[1024, 2048]` matrix product accumulated into zeros is, at `(p, q)`, the sum over the
    1024 features of the left factor at `(p, k)` times the right factor at `(k, q)`. -/
theorem matmul_zero_at (l : FVec Ideal S32x1024 .f32) (r : FVec Ideal S1024x2048 .f32) (p : Fin 32) (q : Fin 2048) :
    matmul dot_S32x1024_S1024x2048_S32x2048_1_0_0_1_n_n none l r (constant (F := Ideal) S32x2048 .f32 0x00000000#32) (ix2 p q)
      = ∑ k : Fin 1024, l (ix2 p k) * r (ix2 k q) := by
  show FloatOps.matmul dot_S32x1024_S1024x2048_S32x2048_1_0_0_1_n_n none l r (constant (F := Ideal) S32x2048 .f32 0x00000000#32) (ix2 p q) = _
  rw [Ideal.matmul_constant_zero_apply, ← Equiv.sum_comp (ValueIdx.contrEquiv1 dot_S32x1024_S1024x2048_S32x2048_1_0_0_1_n_n 1024 rfl rfl).symm]
  refine Finset.sum_congr rfl fun k _ => ?_
  have hk := ValueIdx.contrEquiv1_symm_val dot_S32x1024_S1024x2048_S32x2048_1_0_0_1_n_n 1024 rfl rfl k
  have el : dot_S32x1024_S1024x2048_S32x2048_1_0_0_1_n_n.lhsIdx (ix2 p q) ((ValueIdx.contrEquiv1 dot_S32x1024_S1024x2048_S32x2048_1_0_0_1_n_n 1024 rfl rfl).symm k) = ix2 p k := funext fun a => Fin.ext (by
    match a with
    | ⟨0, _⟩ => exact lhs_row _ _
    | ⟨1, _⟩ => exact (lhs_col _ _).trans hk)
  have er : dot_S32x1024_S1024x2048_S32x2048_1_0_0_1_n_n.rhsIdx (ix2 p q) ((ValueIdx.contrEquiv1 dot_S32x1024_S1024x2048_S32x2048_1_0_0_1_n_n 1024 rfl rfl).symm k) = ix2 k q := funext fun a => Fin.ext (by
    match a with
    | ⟨0, _⟩ => exact (rhs_row _ _).trans hk
    | ⟨1, _⟩ => exact rhs_col _ _)
  rw [el, er]

/-! ## The whole step, at an index -/

/-- What a grid step stores, at row `p` and column `q` of its tile: the sum over the features `k` of `x(p, k)`
    times the masked weight `w(k, q) · mask(k, q)` of the tile, plus the tile's bias entry `q`. -/
theorem step_at (wt mt : FVec Ideal S1024x2048 .f32) (x : FVec Ideal S32x1024 .f32) (bt : FVec Ideal S2048 .f32)
    (p : Fin 32) (q : Fin 2048) :
    k0_pay1 (F := Ideal) wt mt x bt (ix2 p q)
      = (∑ k : Fin 1024, x (ix2 p k) * (wt (ix2 k q) * mt (ix2 k q))) + bt (ix1 q) := by
  unfold k0_pay1
  show matmul dot_S32x1024_S1024x2048_S32x2048_1_0_0_1_n_n none x (mulf wt mt) (constant (F := Ideal) S32x2048 .f32 0x00000000#32) (ix2 p q)
      + broadcastTo S32x2048 (shapeCast S1x2048 bt _) _ (ix2 p q) = _
  rw [matmul_zero_at, broadcastTo_1b_ab_apply, shapeCast_a_1a_apply]
  rfl

end Cert.KernelIdeal.Body

end
-- ==== Proof.TilesOfArray.lean ====
/-
  From the 32 column tiles to the whole result array.

  The grid has 32 points; point `t` is given the whole input `x`, columns `2048·t … 2048·t + 2047` of the mask and of
  the weights, and the same entries of the bias, and writes back columns `2048·t … 2048·t + 2047` of the result.
  So an element `(p, q)` of point `t`'s tile sits in the arrays at column `J = 2048·t + q` (rows are not tiled), and
  by the step's arithmetic the tile's entry `(p, q)` is the layer's entry `(p, J)`: what point `t` writes back is tile
  `t` of the layer. Every column `J` lies in exactly the tile `t = J / 2048`, so the tiles cover the array, and the
  array ends holding the layer of the argument arrays.
-/
import proofs.«143473_j82695300317332_2_alg».proof.Proof.Gen.KernelIdeal.Value
import proofs.«143473_j82695300317332_2_alg».proof.Proof.MaskedLinear
import proofs.«143473_j82695300317332_2_alg».proof.Proof.BodyAtIndex
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Tiles

open Cert.KernelIdeal Cert.KernelIdeal.Gen Idealize.ShloMosaic.ValueIdx

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The grid has 32 points. -/
theorem point_lt (t : Fin cfg0.N) : t.val < 32 := lt_of_lt_of_eq t.isLt N_0

/-- Where each window's tile sits at point `t`: the input `x` is never tiled; the mask, the weights and the result are
    tiled along their columns, the bias along its one axis, all at tile number `t` (decided over the 32 points). -/
theorem tile_index : ∀ t : Fin cfg0.N,
      win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 1) = t.val
    ∧ win0_4.index t (0 : Fin 2) = 0 ∧ win0_4.index t (1 : Fin 2) = t.val :=
  (by decide +kernel : ∀ t : Fin grid0.N, _)

/-! ## Each input tile as entries of its argument array -/

/-- The input `x` as point `t` finds it is the whole argument. -/
theorem x_tile (c : Dev nD) (t : Fin cfg0.N) (p : Fin 32) (k : Fin 1024) :
    (iblk m c 0 t : Vec Ideal S32x1024 .f32) (ix2 p k) = ((m ((c : Thread nD τ).loc main_arg0)) : S32x1024.Idx → EReal) (ix2 p k) := by
  obtain ⟨e0, e1, -⟩ := tile_index t
  unfold iblk
  rw [View.read_apply]
  show V m c main_arg0 _ = m (c.tc.loc main_arg0) _
  congr 1
  funext a
  apply Fin.ext
  match a with
  | ⟨0, _⟩ => show win0_0.index t 0 * 32 + 1 * p.val = p.val; rw [e0]; omega
  | ⟨1, _⟩ => show win0_0.index t 1 * 1024 + 1 * k.val = k.val; rw [e1]; omega

/-- The mask tile of point `t`, at `(k, q)`, is the mask at column `J = 2048·t + q`. -/
theorem mask_tile (c : Dev nD) (t : Fin cfg0.N) (k : Fin 1024) (q : Fin 2048) (J : Fin 65536) (hJ : J.val = t.val * 2048 + q.val) :
    (iblk m c 1 t : Vec Ideal S1024x2048 .f32) (ix2 k q) = ((m ((c : Thread nD τ).loc main_arg1)) : S1024x65536.Idx → EReal) (ix2 k J) := by
  obtain ⟨-, -, e0, e1, -⟩ := tile_index t
  unfold iblk
  rw [View.read_apply]
  show V m c main_arg1 _ = m (c.tc.loc main_arg1) _
  congr 1
  funext a
  apply Fin.ext
  match a with
  | ⟨0, _⟩ => show win0_1.index t 0 * 1024 + 1 * k.val = k.val; rw [e0]; omega
  | ⟨1, _⟩ => show win0_1.index t 1 * 2048 + 1 * q.val = J.val; rw [e1, hJ]; omega

/-- The weight tile of point `t`, at `(k, q)`, is the weights at column `J = 2048·t + q`. -/
theorem w_tile (c : Dev nD) (t : Fin cfg0.N) (k : Fin 1024) (q : Fin 2048) (J : Fin 65536) (hJ : J.val = t.val * 2048 + q.val) :
    (iblk m c 2 t : Vec Ideal S1024x2048 .f32) (ix2 k q) = ((m ((c : Thread nD τ).loc main_arg2)) : S1024x65536.Idx → EReal) (ix2 k J) := by
  obtain ⟨-, -, -, -, e0, e1, -⟩ := tile_index t
  unfold iblk
  rw [View.read_apply]
  show V m c main_arg2 _ = m (c.tc.loc main_arg2) _
  congr 1
  funext a
  apply Fin.ext
  match a with
  | ⟨0, _⟩ => show win0_2.index t 0 * 1024 + 1 * k.val = k.val; rw [e0]; omega
  | ⟨1, _⟩ => show win0_2.index t 1 * 2048 + 1 * q.val = J.val; rw [e1, hJ]; omega

/-- The bias tile of point `t`, at `q`, is the bias at `J = 2048·t + q`. -/
theorem b_tile (c : Dev nD) (t : Fin cfg0.N) (q : Fin 2048) (J : Fin 65536) (hJ : J.val = t.val * 2048 + q.val) :
    (iblk m c 3 t : Vec Ideal S2048 .f32) (ix1 q) = ((m ((c : Thread nD τ).loc main_arg3)) : S65536.Idx → EReal) (ix1 J) := by
  obtain ⟨-, -, -, -, -, -, e0, -⟩ := tile_index t
  unfold iblk
  rw [View.read_apply]
  show V m c main_arg3 _ = m (c.tc.loc main_arg3) _
  congr 1
  funext a
  apply Fin.ext
  match a with
  | ⟨0, _⟩ => show win0_3.index t 0 * 2048 + 1 * q.val = J.val; rw [e0, hJ]; omega

/-- Element `(p, q)` of the result tile of point `t` sits in the result array at `(p, J)`, `J = 2048·t + q`. -/
theorem out_place (t : Fin cfg0.N) (p : Fin 32) (q : Fin 2048) (J : Fin 65536) (hJ : J.val = t.val * 2048 + q.val) :
    ((cfg0.win 4).blk t).view.emb (ix2 p q : S32x2048.Idx) = (ix2 p J : S32x65536.Idx) := by
  obtain ⟨-, -, -, -, -, -, -, e0, e1⟩ := tile_index t
  funext a
  apply Fin.ext
  match a with
  | ⟨0, _⟩ => show win0_4.index t 0 * 32 + 1 * p.val = p.val; rw [e0]; omega
  | ⟨1, _⟩ => show win0_4.index t 1 * 2048 + 1 * q.val = J.val; rw [e1, hJ]; omega

/-! ## What a point writes back -/

/-- The layer of the argument arrays as the run finds them. -/
abbrev result (c : Dev nD) : Buf (Elt Ideal) ((c : Thread nD τ).loc main_v0) :=
  Cert.MaskedLinear.layer (m ((c : Thread nD τ).loc main_arg0)) (m ((c : Thread nD τ).loc main_arg1)) (m ((c : Thread nD τ).loc main_arg2)) (m ((c : Thread nD τ).loc main_arg3))

/-- WHAT POINT `t` WRITES BACK is tile `t` of the layer: at `(p, q)` the step's sum over the features, whose factors
    are the arguments' entries at column `2048·t + q`, plus that column's bias. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero2]
  simp only [View.ld_unit_zero (S := S1024x2048) zero2, View.ld_unit_zero (S := S32x1024) zero2, View.ld_unit_zero (S := S2048) zero1]
  funext j
  obtain ⟨p, q, rfl⟩ : ∃ (p : Fin 32) (q : Fin 2048), j = ix2 p q := ⟨j 0, j 1, eq_ix2 j⟩
  have ht := point_lt t
  obtain ⟨J, hJ⟩ : ∃ J : Fin 65536, J.val = t.val * 2048 + q.val := ⟨⟨t.val * 2048 + q.val, by have := q.isLt; omega⟩, rfl⟩
  show k0_pay1 (F := Ideal) (iblk m c 2 t) (iblk m c 1 t) (iblk m c 0 t) (iblk m c 3 t) (ix2 p q)
      = result m c (((cfg0.win 4).blk t).view.emb (ix2 p q : S32x2048.Idx))
  rw [out_place t p q J hJ]
  refine (Cert.KernelIdeal.Body.step_at (iblk m c 2 t) (iblk m c 1 t) (iblk m c 0 t) (iblk m c 3 t) p q).trans ?_
  show _ = Cert.MaskedLinear.entry (m ((c : Thread nD τ).loc main_arg0)) (m ((c : Thread nD τ).loc main_arg1)) (m ((c : Thread nD τ).loc main_arg2)) (m ((c : Thread nD τ).loc main_arg3)) p J
  unfold Cert.MaskedLinear.entry
  rw [b_tile m c t q J hJ]
  refine congrArg (· + ((m ((c : Thread nD τ).loc main_arg3)) : S65536.Idx → EReal) (ix1 J)) (Finset.sum_congr rfl fun k _ => ?_)
  rw [x_tile m c t p k, w_tile m c t k q J hJ, mask_tile m c t k q J hJ]

/-! ## The tiles cover the array -/

/-- An index is in point `t`'s tile iff each coordinate is in the tile's range on its axis. -/
theorem mem_tile (t : Fin cfg0.N) (i : S32x65536.Idx) :
    i ∈ ((cfg0.win 4).blk t).view.set ↔ ∀ a : Fin 2, win0_4.index t a * S32x2048.size a ≤ (i a).val ∧ (i a).val < win0_4.index t a * S32x2048.size a + S32x2048.size a := by
  show i ∈ ((View.whole main_v0).slice (win0_4.rect t)).set ↔ _
  rw [View.set_slice_whole, Rect.mem_set_unit]
  exact Iff.rfl

/-- Column `J` lies in the tile of point `J / 2048`, which writes back: every index of the result is covered. -/
theorem covered (i : S32x65536.Idx) :
    ∃ t : Fin cfg0.N, (cfg0.win 4).flush t = true ∧ i ∈ ((cfg0.win 4).blk t).view.set := by
  have h0 : (i 0).val < 32 := (i 0).isLt
  have h1 : (i 1).val < 65536 := (i 1).isLt
  obtain ⟨t, ht⟩ : ∃ t : Fin cfg0.N, t.val = (i 1).val / 2048 :=
    ⟨⟨(i 1).val / 2048, by rw [show cfg0.N = 32 from N_0]; omega⟩, rfl⟩
  obtain ⟨-, -, -, -, -, -, -, e0, e1⟩ := tile_index t
  refine ⟨t, flush0_4 t, ?_⟩
  rw [mem_tile]
  intro a
  match a with
  | ⟨0, _⟩ => show win0_4.index t 0 * 32 ≤ (i 0).val ∧ (i 0).val < win0_4.index t 0 * 32 + 32; rw [e0]; omega
  | ⟨1, _⟩ => show win0_4.index t 1 * 2048 ≤ (i 1).val ∧ (i 1).val < win0_4.index t 1 * 2048 + 2048; rw [e1, ht]; omega

/-! ## The array after the run, and the run -/

/-- The result array ends holding the layer of the argument arrays. -/
theorem final (c : Dev nD) : (dats m 0 c).arrAt 4 cfg0.N = result m c :=
  (dats m 0 c).arrAt_eq_of_cover 4 (result m c) (fun t _ => flushed_eq m c t) covered

/-- The kernel's run: every weakly fair execution terminates with the result array at the layer of the argument
    arrays, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Tiles

end
-- ==== Proof.lean ====
/-
  A masked linear layer, tiled over its output columns, against the same layer computed whole.

  Both programs take an input `x` (`[32, 1024]`), a mask and weights (`[1024, 65536]` each) and a bias (`[65536]`), and
  return, at row `p` and column `J`,

      ( Σ_{k < 1024}  x(p, k) · ( w(k, J) · mask(k, J) ) )  +  b(J)

  (`Cert.MaskedLinear.layer`). The reference forms the masked weights as one array, contracts `x` with it in one
  matrix product and adds the bias repeated over the rows. The kernel walks the columns in 32 tiles of 2048: at each
  tile it multiplies the weight tile by the mask tile, multiplies `x` by the product as matrices starting from zeros,
  and adds the tile's bias entries repeated over the rows.

  Over the extended reals the two agree entry by entry, with no condition on the inputs: the masked weight is the
  same product `w · mask` on both sides; a matrix product accumulated into zeros is the plain sum of the 1024 products,
  zero being neutral for the extended reals' addition; and which tile a column falls in changes nothing, since an
  entry of the result depends only on its own column of the mask, the weights and the bias. The precondition (finite
  inputs) is therefore never opened.

  `ReferenceStage` reads the reference's operations at an index (the layer, term by term); `BodyAtIndex` reads one
  grid step's arithmetic at an index; `TilesOfArray` places each tile's elements in the arrays (column `2048·t + q`),
  shows that what point `t` writes back is tile `t` of the layer and that the tiles cover the result, and states the
  kernel's run. Here the two runs are set side by side at the one function. The idealization rewrote no operation, so
  there is nothing to preserve beyond the programs' own text.
-/
import proofs.«143473_j82695300317332_2_alg».proof.Defs
import proofs.«143473_j82695300317332_2_alg».proof.Proof.Gen.Kernel
import proofs.«143473_j82695300317332_2_alg».proof.Proof.Gen.Kernel.Skeleton
import proofs.«143473_j82695300317332_2_alg».proof.Proof.Gen.Kernel.Launch
import proofs.«143473_j82695300317332_2_alg».proof.Proof.Gen.Kernel.Points
import proofs.«143473_j82695300317332_2_alg».proof.Proof.Gen.Kernel.Frame
import proofs.«143473_j82695300317332_2_alg».proof.Proof.Gen.KernelIdeal
import proofs.«143473_j82695300317332_2_alg».proof.Proof.Gen.KernelIdeal.Skeleton
import proofs.«143473_j82695300317332_2_alg».proof.Proof.Gen.KernelIdeal.Launch
import proofs.«143473_j82695300317332_2_alg».proof.Proof.Gen.KernelIdeal.Points
import proofs.«143473_j82695300317332_2_alg».proof.Proof.Gen.KernelIdeal.Frame
import proofs.«143473_j82695300317332_2_alg».proof.Proof.Gen.ReferenceIdeal
import proofs.«143473_j82695300317332_2_alg».proof.Proof.Gen.Pre_finite_inputs
import proofs.«143473_j82695300317332_2_alg».proof.Proof.Gen.KernelIdeal.Value
import proofs.«143473_j82695300317332_2_alg».proof.Proof.Gen.ReferenceIdeal.Run
import proofs.«143473_j82695300317332_2_alg».proof.Proof.Gen.ReferenceIdeal.Read
import proofs.«143473_j82695300317332_2_alg».proof.Proof.MaskedLinear
import proofs.«143473_j82695300317332_2_alg».proof.Proof.ReferenceStage
import proofs.«143473_j82695300317332_2_alg».proof.Proof.BodyAtIndex
import proofs.«143473_j82695300317332_2_alg».proof.Proof.TilesOfArray
import Idealize.ShloMosaic.Adequacy
import Idealize.ShloMosaic.Init

noncomputable section

namespace Cert.Proof

open Idealize.ShloMosaic Idealize.ShloMosaic.TcCoe Idealize.SL.Sem

/-- The kernel as printed runs to the end, without a fault, its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments, the kernel's result array and the
    reference's both end at the masked linear layer of those arguments: the kernel's by its 32 tiles
    (`Tiles.run`), the reference's by its operations read at an index (`Stage.stage_eq`). -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.Stage.stage_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
